-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x3x128 : Shape := ⟨3, ![262144, 3, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x3x128 : S_.BroadcastsInDim S262144x3x128 (![] : Fin 0 → Fin S262144x3x128.rank)
  reducesTo_S262144x3x128_S_d0_1_2 : S262144x3x128.ReducesTo [0, 1, 2] S_

variable [Facts]

def fn_part1 {F : FTy → Type} [FloatOps F] (main_v13 : IVec S_ 1) (main_v16 : IVec S262144x3x128 1) : IVec S_ 1 :=
  let main_c_5 : IVec S_ 1 := constantI S_ 1 1#1
  let main_v17 : IVec S_ 1 := (fun x v => Host.reduce IntOp.andi x v reducesTo_S262144x3x128_S_d0_1_2 h_S_) main_v16 main_c_5
  let main_v18 : IVec S_ 1 := andi main_v13 main_v17
  main_v18

def fn {F : FTy → Type} [FloatOps F] (main_arg0 : FVec F S262144x128 .f32) (main_arg1 : FVec F S262144x3x128 .f32) (main_arg2 : FVec F S262144x128 .f32) (main_arg3 : FVec F S262144x3x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x3x128 .f32 := Host.absf main_arg1
  let main_cst_0 : FVec F S_ .f32 := constant S_ .f32 0x7F800000#32
  let main_v5 : FVec F S262144x3x128 .f32 := broadcastInDim S262144x3x128 ![] bcast_S_S262144x3x128 main_cst_0
  let main_v6 : IVec S262144x3x128 1 := cmpf .olt main_v4 main_v5
  let main_c_1 : IVec S_ 1 := constantI S_ 1 1#1
  let main_v7 : IVec S_ 1 := (fun x v => Host.reduce IntOp.andi x v reducesTo_S262144x3x128_S_d0_1_2 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x3x128 .f32 := Host.absf main_arg3
  let main_cst_4 : FVec F S_ .f32 := constant S_ .f32 0x7F800000#32
  let main_v15 : FVec F S262144x3x128 .f32 := broadcastInDim S262144x3x128 ![] bcast_S_S262144x3x128 main_cst_4
  let main_v16 : IVec S262144x3x128 1 := cmpf .olt main_v14 main_v15
  fn_part1 (F := F) main_v13 main_v16
-- ==== Kernel.lean ====
abbrev S262144x128 : Shape := ⟨2, ![262144, 128]⟩
abbrev S262144x3x128 : Shape := ⟨3, ![262144, 3, 128]⟩
abbrev S262144x384 : Shape := ⟨2, ![262144, 384]⟩
abbrev S262144x256 : Shape := ⟨2, ![262144, 256]⟩
abbrev S2048x128 : Shape := ⟨2, ![2048, 128]⟩
abbrev S2048x384 : Shape := ⟨2, ![2048, 384]⟩
abbrev S2048x256 : Shape := ⟨2, ![2048, 256]⟩

abbrev nBuf : Space → Nat
  | .hbm => 7
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144x3x128, .f32⟩
  | .hbm, ⟨2, _⟩ => ⟨S262144x128, .f32⟩
  | .hbm, ⟨3, _⟩ => ⟨S262144x3x128, .f32⟩
  | .hbm, ⟨4, _⟩ => ⟨S262144x384, .f32⟩
  | .hbm, ⟨5, _⟩ => ⟨S262144x384, .f32⟩
  | .hbm, ⟨6, _⟩ => ⟨S262144x256, .f32⟩
  | .local _ .vmem, ⟨0, _⟩ => ⟨S2048x128, .f32⟩
  | .local _ .vmem, ⟨1, _⟩ => ⟨S2048x128, .f32⟩
  | .local _ .vmem, ⟨2, _⟩ => ⟨S2048x384, .f32⟩
  | .local _ .vmem, ⟨3, _⟩ => ⟨S2048x384, .f32⟩
  | .local _ .vmem, ⟨4, _⟩ => ⟨S2048x128, .f32⟩
  | .local _ .vmem, ⟨5, _⟩ => ⟨S2048x128, .f32⟩
  | .local _ .vmem, ⟨6, _⟩ => ⟨S2048x384, .f32⟩
  | .local _ .vmem, ⟨7, _⟩ => ⟨S2048x384, .f32⟩
  | .local _ .vmem, ⟨8, _⟩ => ⟨S2048x256, .f32⟩
  | .local _ .vmem, ⟨9, _⟩ => ⟨S2048x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S262144x3x128_S262144x384 : S262144x3x128.ShapeCasts S262144x384
  inb_S2048x128_S2048x128_0_0 : ∀ a, (![0, 0] : Fin 2 → Nat) a + S2048x128.size a ≤ S2048x128.size a
  h_S2048x128 : 0 < S2048x128.numel
  inb_S2048x384_S2048x128_0_0 : ∀ a, (![0, 0] : Fin 2 → Nat) a + S2048x128.size a ≤ S2048x384.size a
  shapeCasts_S2048x128_S2048x128 : S2048x128.ShapeCasts S2048x128
  inb_S2048x384_S2048x128_0_128 : ∀ a, (![0, 128] : Fin 2 → Nat) a + S2048x128.size a ≤ S2048x384.size a
  inb_S2048x384_S2048x128_0_256 : ∀ a, (![0, 256] : Fin 2 → Nat) a + S2048x128.size a ≤ S2048x384.size a
  inb_S2048x256_S2048x128_0_0 : ∀ a, (![0, 0] : Fin 2 → Nat) a + S2048x128.size a ≤ S2048x256.size a
  inb_S2048x256_S2048x128_0_128 : ∀ a, (![0, 128] : Fin 2 → Nat) a + S2048x128.size a ≤ S2048x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S262144x384.size a
  hwx0_1 : ∀ i : grid0.Coords, EltTy.bits .f32 = 32 ∨ (Rect.block (s := S262144x384) S2048x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x384.size a ≤ S262144x384.size a
  hwx0_3 : ∀ i : grid0.Coords, EltTy.bits .f32 = 32 ∨ (Rect.block (s := S262144x384) S2048x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S262144x256.size a
  hwx0_4 : ∀ i : grid0.Coords, EltTy.bits .f32 = 32 ∨ (Rect.block (s := S262144x256) S2048x256.size (cc0_transform_4 i) (hinb0_4 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x3x128 : Shape := ⟨3, ![262144, 3, 128]⟩
abbrev S_ : Shape := ⟨0, ![]⟩
abbrev S262144x256 : Shape := ⟨2, ![262144, 256]⟩

abbrev nBuf : Space → Nat
  | .hbm => 9
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x3x128, .f32⟩
  | .hbm, ⟨2, _⟩ => ⟨S262144x128, .f32⟩
  | .hbm, ⟨3, _⟩ => ⟨S262144x3x128, .f32⟩
  | .hbm, ⟨4, _⟩ => ⟨S262144x128, .f32⟩
  | .hbm, ⟨5, _⟩ => ⟨S262144x3x128, .f32⟩
  | .hbm, ⟨6, _⟩ => ⟨S_, .f32⟩
  | .hbm, ⟨7, _⟩ => ⟨S262144x128, .f32⟩
  | .hbm, ⟨8, _⟩ => ⟨S262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  reducesTo_S262144x3x128_S262144x128_d1 : S262144x3x128.ReducesTo [1] S262144x128
  h_S_ : 0 < S_.numel
  concatenates_S262144x128_S262144x128_S262144x256_d1 : Shape.Concatenates [S262144x128, S262144x128] S262144x256 1

variable [Facts₀]

class Facts : Prop extends Facts₀ where

variable [Facts]
-- ==== Proof.Pairing.lean ====
/-
  The function both programs compute, stated with no program in sight.

  Each of the 262144 rows carries, on either side, 128 channels of a scalar and 128 channels of a
  3-vector. The result row has 256 columns. Column c < 128 is the product of the two scalars of
  channel c. Column 128 + j is the inner product of the two 3-vectors of channel j,

      l(r,0,j) * r(r,0,j) + l(r,1,j) * r(r,1,j) + l(r,2,j) * r(r,2,j),

  over the extended reals. An output column c therefore belongs to half c / 128 and, inside its
  half, to channel c % 128.

  The same function is also written over ROW-FLATTENED vector arguments, [rows, 384] in place of
  [rows, 3, 128]: component k of channel j sits at column 128 k + j of the flattened row. That form
  is stated twice, over the whole array of 262144 rows and over one block of 2048 consecutive rows;
  on the whole array it agrees with the first form whenever the flattened arrays are the row-major
  re-reading of the three-axis ones.

  The one algebraic fact used: a sum of three terms started from zero is the first two terms added,
  then the third. Addition of extended reals is associative and commutative with 0 as its unit, so
  this holds at the infinities too and no finiteness is asked of the arguments.
-/
import Idealize.ShloMosaic.PureOps.Ideal
import Idealize.ShloMosaic.Lib.ValueIdx

noncomputable section

open scoped BigOperators

namespace Cert.Pairing

open Idealize.ShloMosaic Idealize.ShloMosaic.ValueIdx

/-- The channel of an output column: its position inside its half of the row. -/
abbrev lane (c : Fin 256) : Fin 128 := ⟨c.val % 128, Nat.mod_lt _ (by decide)⟩

/-- Where component k of channel j sits in a flattened row of 3 * 128 entries. -/
abbrev flatCol (k : Fin 3) (j : Fin 128) : Fin 384 :=
  ⟨128 * k.val + j.val, by have := k.isLt; have := j.isLt; omega⟩

/-- The inner product of two 3-vectors, added in the order first, second, third. -/
abbrev dot3 (f g : Fin 3 → EReal) : EReal := (f 0 * g 0 + f 1 * g 1) + f 2 * g 2

/-- A sum over the three components started from zero is dot3: zero is the unit of addition and
    the three-term sum is grouped from the left. -/
theorem zero_add_sum_eq_dot3 (f g : Fin 3 → EReal) : (0 : EReal) + ∑ k : Fin 3, f k * g k = dot3 f g := by
  rw [zero_add, Fin.sum_univ_three]

/-- THE RESULT as one function of the four argument arrays, index by index. -/
def pairing (a0 : FVec Ideal ⟨2, ![262144, 128]⟩ .f32) (a1 : FVec Ideal ⟨3, ![262144, 3, 128]⟩ .f32)
    (a2 : FVec Ideal ⟨2, ![262144, 128]⟩ .f32) (a3 : FVec Ideal ⟨3, ![262144, 3, 128]⟩ .f32) :
    FVec Ideal ⟨2, ![262144, 256]⟩ .f32 := fun i =>
  if (i 1).val < 128 then
    a0 (ix2 (⟨(i 0).val, idx2_lt0 i⟩ : Fin 262144) (lane ⟨(i 1).val, idx2_lt1 i⟩))
      * a2 (ix2 (⟨(i 0).val, idx2_lt0 i⟩ : Fin 262144) (lane ⟨(i 1).val, idx2_lt1 i⟩))
  else
    dot3 (fun k => a1 (ix3 (⟨(i 0).val, idx2_lt0 i⟩ : Fin 262144) k (lane ⟨(i 1).val, idx2_lt1 i⟩)))
      (fun k => a3 (ix3 (⟨(i 0).val, idx2_lt0 i⟩ : Fin 262144) k (lane ⟨(i 1).val, idx2_lt1 i⟩)))

/-- The same function over row-flattened vector arguments, on the whole array. -/
def flatPairing (b0 : FVec Ideal ⟨2, ![262144, 128]⟩ .f32) (b1 : FVec Ideal ⟨2, ![262144, 384]⟩ .f32)
    (b2 : FVec Ideal ⟨2, ![262144, 128]⟩ .f32) (b3 : FVec Ideal ⟨2, ![262144, 384]⟩ .f32) :
    FVec Ideal ⟨2, ![262144, 256]⟩ .f32 := fun i =>
  if (i 1).val < 128 then
    b0 (ix2 (⟨(i 0).val, idx2_lt0 i⟩ : Fin 262144) (lane ⟨(i 1).val, idx2_lt1 i⟩))
      * b2 (ix2 (⟨(i 0).val, idx2_lt0 i⟩ : Fin 262144) (lane ⟨(i 1).val, idx2_lt1 i⟩))
  else
    dot3 (fun k => b1 (ix2 (⟨(i 0).val, idx2_lt0 i⟩ : Fin 262144) (flatCol k (lane ⟨(i 1).val, idx2_lt1 i⟩))))
      (fun k => b3 (ix2 (⟨(i 0).val, idx2_lt0 i⟩ : Fin 262144) (flatCol k (lane ⟨(i 1).val, idx2_lt1 i⟩))))

/-- And on one block of 2048 rows: what one grid point computes from its four input blocks. -/
def blockPairing (x0 : FVec Ideal ⟨2, ![2048, 128]⟩ .f32) (x1 : FVec Ideal ⟨2, ![2048, 384]⟩ .f32)
    (x2 : FVec Ideal ⟨2, ![2048, 128]⟩ .f32) (x3 : FVec Ideal ⟨2, ![2048, 384]⟩ .f32) :
    FVec Ideal ⟨2, ![2048, 256]⟩ .f32 := fun y =>
  if (y 1).val < 128 then
    x0 (ix2 (⟨(y 0).val, idx2_lt0 y⟩ : Fin 2048) (lane ⟨(y 1).val, idx2_lt1 y⟩))
      * x2 (ix2 (⟨(y 0).val, idx2_lt0 y⟩ : Fin 2048) (lane ⟨(y 1).val, idx2_lt1 y⟩))
  else
    dot3 (fun k => x1 (ix2 (⟨(y 0).val, idx2_lt0 y⟩ : Fin 2048) (flatCol k (lane ⟨(y 1).val, idx2_lt1 y⟩))))
      (fun k => x3 (ix2 (⟨(y 0).val, idx2_lt0 y⟩ : Fin 2048) (flatCol k (lane ⟨(y 1).val, idx2_lt1 y⟩))))

/-- Over flattened arrays that are the row-major re-reading of the three-axis ones, the flattened
    form is the result. -/
theorem flatPairing_eq_pairing (a0 : FVec Ideal ⟨2, ![262144, 128]⟩ .f32) (a1 : FVec Ideal ⟨3, ![262144, 3, 128]⟩ .f32)
    (a2 : FVec Ideal ⟨2, ![262144, 128]⟩ .f32) (a3 : FVec Ideal ⟨3, ![262144, 3, 128]⟩ .f32)
    (b1 b3 : FVec Ideal ⟨2, ![262144, 384]⟩ .f32)
    (h1 : ∀ (r : Fin 262144) (k : Fin 3) (j : Fin 128), b1 (ix2 r (flatCol k j)) = a1 (ix3 r k j))
    (h3 : ∀ (r : Fin 262144) (k : Fin 3) (j : Fin 128), b3 (ix2 r (flatCol k j)) = a3 (ix3 r k j)) :
    flatPairing a0 b1 a2 b3 = pairing a0 a1 a2 a3 := by
  funext i
  unfold flatPairing pairing
  simp only [h1, h3]

end Cert.Pairing

end
-- ==== Proof.ReferencePairing.lean ====
/-
  The reference's last stage is the result function of the specification.

  The reference multiplies the two scalar arrays entry by entry, multiplies the two vector arrays
  entry by entry, sums the second product over the axis of the three components starting from zero,
  and joins the two [262144, 128] arrays side by side along the column axis.

  Read at an output index (r, c): the joined array takes its entry from the first piece at (r, c)
  when c < 128, and from the second piece at (r, c - 128) otherwise; c - 128 is c % 128 on that half.
  The first piece there is the product of the scalars of channel c. The second is zero plus the sum,
  over the component k, of the products at (r, k, c - 128), which is the three-term inner product by
  the specification's one law.
-/
import proofs.«164829_j9062380994709_2_alg».proof.Proof.Gen.ReferenceIdeal.Read
import proofs.«164829_j9062380994709_2_alg».proof.Proof.Pairing
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Pairing

/-- The index the sum reads at component k is (row, k, channel). -/
theorem idx_sum (r : Fin 262144) (j : Fin 128) (k : Fin 3) :
    idx_main_v2 (ix2 r j) k = ix3 r k j :=
  funext fun a => Fin.ext (by match a with | ⟨0, _⟩ => rfl | ⟨1, _⟩ => rfl | ⟨2, _⟩ => rfl)

/-- The summed stage at (row, channel): the three-term inner product of the two vectors there. -/
theorem sum_stage_apply (x1 x3 : FVec Ideal S262144x3x128 .f32) (r : Fin 262144) (j : Fin 128) :
    val_main_v2 (F := Ideal) x1 x3 (ix2 r j) = dot3 (fun k => x1 (ix3 r k j)) (fun k => x3 (ix3 r k j)) := by
  rw [val_main_v2_apply]
  simp only [idx_sum]
  show Ideal.ofBits .f32 0x00000000#32 + ∑ k : Fin 3, x1 (ix3 r k j) * x3 (ix3 r k j) = _
  rw [Ideal.ofBits_zero_f32]
  exact zero_add_sum_eq_dot3 _ _

/-- THE REFERENCE IS THE RESULT FUNCTION: its last stage, index by index. -/
theorem stage_eq_pairing (x0 : FVec Ideal S262144x128 .f32) (x1 : FVec Ideal S262144x3x128 .f32)
    (x2 : FVec Ideal S262144x128 .f32) (x3 : FVec Ideal S262144x3x128 .f32) :
    val_main_v3 (F := Ideal) x0 x1 x2 x3 = pairing x0 x1 x2 x3 := by
  funext i
  have hc : (i 1).val < 256 := idx2_lt1 i
  unfold val_main_v3 pairing
  by_cases h : (i 1).val < 128
  · rw [if_pos h]
    refine (concatenate_pair_apply_left (t := S262144x256) (s₁ := S262144x128) (s₂ := S262144x128) (1 : Fin 2) _ _ _ i rfl
      (ix2 (⟨(i 0).val, idx2_lt0 i⟩ : Fin 262144) (lane ⟨(i 1).val, idx2_lt1 i⟩)) ?_).trans ?_
    · intro b
      match b with
      | ⟨0, _⟩ => rfl
      | ⟨1, _⟩ => exact Nat.mod_eq_of_lt h
    · rfl
  · rw [if_neg h]
    refine (concatenate_pair_apply_right (t := S262144x256) (s₁ := S262144x128) (s₂ := S262144x128) (1 : Fin 2) _ _ _ i rfl rfl
      (ix2 (⟨(i 0).val, idx2_lt0 i⟩ : Fin 262144) (lane ⟨(i 1).val, idx2_lt1 i⟩)) ?_ ?_).trans ?_
    · intro b hb
      match b with
      | ⟨0, _⟩ => rfl
      | ⟨1, _⟩ => exact absurd rfl hb
    · show (i 1).val % 128 + 128 = (i 1).val
      omega
    · exact sum_stage_apply x1 x3 _ _

end Cert.ReferenceIdeal.RefValue

end
-- ==== Proof.BlockPairing.lean ====
/-
  What one grid point computes: the body's result block is the block form of the result function.

  The body fills its [2048, 256] output block by two stores. Columns 0 to 127 receive the product of
  the two scalar blocks, each loaded whole. Columns 128 to 255 receive l0 * r0 + l1 * r1 + l2 * r2,
  where lk and rk are columns 128 k to 128 k + 127 of the two flattened vector blocks; the four
  re-shapings in between are from [2048, 128] to [2048, 128] and change nothing.

  So at local index (row, j) of its rectangle the first store holds x0(row, j) * x2(row, j), and the
  second holds the three-term inner product of x1 and x3 at columns j, 128 + j, 256 + j of the row.
  A block index (row, c) with c < 128 is local index (row, c) of the first rectangle, and one with
  c >= 128 is local index (row, c - 128) of the second; on either half c % 128 is the channel. The
  two rectangles tile the block, so every index is under one of them and the block is that function
  everywhere.
-/
import proofs.«164829_j9062380994709_2_alg».proof.Proof.Gen.KernelIdeal.Frame
import proofs.«164829_j9062380994709_2_alg».proof.Proof.Pairing
import Idealize.ShloMosaic.Lib.Pipeline.Value
import Idealize.ShloMosaic.Lib.ValueIdx

noncomputable section

namespace Cert.KernelIdeal.BlockValue

open Cert.KernelIdeal Cert.KernelIdeal.Gen
open Idealize.ShloMosaic Idealize.ShloMosaic.ValueIdx Cert.Pairing

/-- The first store's value at a local index whose coordinates are (row, j): the scalars' product. -/
theorem scalar_piece (x0 x2 : Vec Ideal S2048x128 .f32) (x : S2048x128.Idx) (r : Fin 2048) (j : Fin 128)
    (hr : (x 0).val = r.val) (hj : (x 1).val = j.val) :
    k0_pay1 (View.ld x0 r0_0) (View.ld x2 r0_0) x = x0 (ix2 r j) * x2 (ix2 r j) := by
  have e : r0_0.idx x = ix2 r j := funext fun a => Fin.ext (by
    match a with
    | ⟨0, _⟩ => show 0 + 1 * (x 0).val = r.val; omega
    | ⟨1, _⟩ => show 0 + 1 * (x 1).val = j.val; omega)
  unfold k0_pay1
  show x0 (r0_0.idx x) * x2 (r0_0.idx x) = _
  rw [e]

/-- The second store's value at a local index whose coordinates are (row, j): the inner product of
    the two 3-vectors of channel j, read at columns j, 128 + j and 256 + j of the flattened row. -/
theorem vector_piece (x1 x3 : Vec Ideal S2048x384 .f32) (x : S2048x128.Idx) (r : Fin 2048) (j : Fin 128)
    (hr : (x 0).val = r.val) (hj : (x 1).val = j.val) :
    k0_pay2 (View.ld x1 r0_1) (View.ld x1 r0_2) (View.ld x1 r0_3) (View.ld x3 r0_1) (View.ld x3 r0_2) (View.ld x3 r0_3) x
      = dot3 (fun k => x1 (ix2 r (flatCol k j))) (fun k => x3 (ix2 r (flatCol k j))) := by
  have e0 : r0_1.idx x = ix2 r (flatCol 0 j) := funext fun a => Fin.ext (by
    match a with
    | ⟨0, _⟩ => show 0 + 1 * (x 0).val = r.val; omega
    | ⟨1, _⟩ => show 0 + 1 * (x 1).val = 128 * 0 + j.val; omega)
  have e1 : r0_2.idx x = ix2 r (flatCol 1 j) := funext fun a => Fin.ext (by
    match a with
    | ⟨0, _⟩ => show 0 + 1 * (x 0).val = r.val; omega
    | ⟨1, _⟩ => show 128 + 1 * (x 1).val = 128 * 1 + j.val; omega)
  have e2 : r0_3.idx x = ix2 r (flatCol 2 j) := funext fun a => Fin.ext (by
    match a with
    | ⟨0, _⟩ => show 0 + 1 * (x 0).val = r.val; omega
    | ⟨1, _⟩ => show 256 + 1 * (x 1).val = 128 * 2 + j.val; omega)
  unfold k0_pay2
  simp only [shapeCast_self]
  show (x1 (r0_1.idx x) * x3 (r0_1.idx x) + x1 (r0_2.idx x) * x3 (r0_2.idx x)) + x1 (r0_3.idx x) * x3 (r0_3.idx x) = _
  rw [e0, e1, e2]

/-- THE BODY'S RESULT BLOCK is the block form of the result function of its four input blocks. -/
theorem out_eq_blockPairing (x0 : Vec Ideal S2048x128 .f32) (x1 : Vec Ideal S2048x384 .f32)
    (x2 : Vec Ideal S2048x128 .f32) (x3 : Vec Ideal S2048x384 .f32) :
    out0_4 x0 x1 x2 x3 = blockPairing x0 x1 x2 x3 := by
  funext y
  unfold out0_4
  refine View.canon_apply_of_pieces (Val := Elt Ideal) (S := S2048x256) (e := .f32) (blockPairing x0 x1 x2 x3) _ ?_ y (cover0_4 _ _ y)
  intro p hp
  simp only [List.mem_cons, List.not_mem_nil, or_false] at hp
  rcases hp with rfl | rfl
  · -- the second store: columns 128 to 255
    intro x
    have h1 : (x 1).val < 128 := (x 1).isLt
    dsimp only
    unfold blockPairing
    rw [if_neg (by show ¬ (128 + 1 * (x 1).val < 128); omega)]
    exact vector_piece x1 x3 x _ _ (by show (x 0).val = 0 + 1 * (x 0).val; omega)
      (by show (x 1).val = (128 + 1 * (x 1).val) % 128; omega)
  · -- the first store: columns 0 to 127
    intro x
    have h1 : (x 1).val < 128 := (x 1).isLt
    dsimp only
    unfold blockPairing
    rw [if_pos (by show 0 + 1 * (x 1).val < 128; omega)]
    exact scalar_piece x0 x2 x _ _ (by show (x 0).val = 0 + 1 * (x 0).val; omega)
      (by show (x 1).val = (0 + 1 * (x 1).val) % 128; omega)

end Cert.KernelIdeal.BlockValue

end
-- ==== Proof.PairingBlocks.lean ====
/-
  A block of rows of the flattened result function is the block function of the input blocks.

  Grid point T (of 128) owns rows 2048 T to 2048 T + 2047 of every array, all columns. If each of
  the four input blocks holds those rows of its array, then at local index (row, c) the block
  function takes the value the array function takes at (2048 T + row, c): both branch on the same
  column, and read the same channel of the same row.
-/
import proofs.«164829_j9062380994709_2_alg».proof.Proof.Pairing

noncomputable section

namespace Cert.Pairing

open Idealize.ShloMosaic Idealize.ShloMosaic.ValueIdx

/-- Row r of block T, as a row of the whole array. -/
abbrev rowOf (T : Fin 128) (r : Fin 2048) : Fin 262144 :=
  ⟨2048 * T.val + r.val, by have := T.isLt; have := r.isLt; omega⟩

/-- Block T of the flattened result function, read at a local index, is the block function of
    input blocks that hold rows 2048 T … of their arrays. -/
theorem blockPairing_eq_flatPairing (T : Fin 128)
    (x0 : FVec Ideal ⟨2, ![2048, 128]⟩ .f32) (x1 : FVec Ideal ⟨2, ![2048, 384]⟩ .f32)
    (x2 : FVec Ideal ⟨2, ![2048, 128]⟩ .f32) (x3 : FVec Ideal ⟨2, ![2048, 384]⟩ .f32)
    (b0 : FVec Ideal ⟨2, ![262144, 128]⟩ .f32) (b1 : FVec Ideal ⟨2, ![262144, 384]⟩ .f32)
    (b2 : FVec Ideal ⟨2, ![262144, 128]⟩ .f32) (b3 : FVec Ideal ⟨2, ![262144, 384]⟩ .f32)
    (h0 : ∀ (r : Fin 2048) (j : Fin 128), x0 (ix2 r j) = b0 (ix2 (rowOf T r) j))
    (h1 : ∀ (r : Fin 2048) (q : Fin 384), x1 (ix2 r q) = b1 (ix2 (rowOf T r) q))
    (h2 : ∀ (r : Fin 2048) (j : Fin 128), x2 (ix2 r j) = b2 (ix2 (rowOf T r) j))
    (h3 : ∀ (r : Fin 2048) (q : Fin 384), x3 (ix2 r q) = b3 (ix2 (rowOf T r) q))
    (y : (⟨2, ![2048, 256]⟩ : Shape).Idx) (i : (⟨2, ![262144, 256]⟩ : Shape).Idx)
    (hi0 : (i 0).val = 2048 * T.val + (y 0).val) (hi1 : (i 1).val = (y 1).val) :
    blockPairing x0 x1 x2 x3 y = flatPairing b0 b1 b2 b3 i := by
  have er : (⟨(i 0).val, idx2_lt0 i⟩ : Fin 262144) = rowOf T ⟨(y 0).val, idx2_lt0 y⟩ := Fin.ext hi0
  have el : lane ⟨(i 1).val, idx2_lt1 i⟩ = lane ⟨(y 1).val, idx2_lt1 y⟩ :=
    Fin.ext (by show (i 1).val % 128 = (y 1).val % 128; rw [hi1])
  unfold blockPairing flatPairing
  rw [er, el, hi1]
  simp only [h0, h1, h2, h3]

end Cert.Pairing

end
-- ==== Proof.FlatArgs.lean ====
/-
  The two flattened arrays the kernel's region reads.

  Before the region the program re-reads each [262144, 3, 128] vector argument as a [262144, 384]
  array in row-major order, and the region's second and fourth windows stage those. Entry
  (r, 128 k + j) of the flattened array is entry (r, k, j) of the argument: both sit at row-major
  position (3 r + k) * 128 + j = 384 r + 128 k + j.
-/
import proofs.«164829_j9062380994709_2_alg».proof.Proof.Gen.KernelIdeal.Frame
import proofs.«164829_j9062380994709_2_alg».proof.Proof.Pairing
import Idealize.ShloMosaic.Lib.Pipeline.Value
import Idealize.ShloMosaic.Lib.StableHlo.Run
import Idealize.ShloMosaic.Lib.ValueIdx

noncomputable section

namespace Cert.KernelIdeal.FlatArgs

open Cert.KernelIdeal Cert.KernelIdeal.Gen
open Idealize.ShloMosaic Idealize.ShloMosaic.TcCoe Idealize.SL.Sem Idealize.ShloMosaic.StableHlo
open Idealize.ShloMosaic.ValueIdx Cert.Pairing

variable (m : (ℓ : Loc nD τ sig) → Buf (Elt Ideal) ℓ)

/-- A row-major re-reading of [262144, 3, 128] as [262144, 384], at (r, 128 k + j): the entry (r, k, j). -/
theorem flatten_apply (a : FVec Ideal S262144x3x128 .f32) (r : Fin 262144) (k : Fin 3) (j : Fin 128) :
    shapeCast S262144x384 a shapeCasts_S262144x3x128_S262144x384 (ix2 r (flatCol k j)) = a (ix3 r k j) := by
  refine shapeCast_apply a _ (ix2 r (flatCol k j)) (ix3 r k j) ?_
  rw [Shape.rowMajor_val_three, Shape.rowMajor_val_two]
  show (r.val * 3 + k.val) * 128 + j.val = r.val * 384 + (128 * k.val + j.val)
  omega

/-- What the region finds in the first flattened array: the second argument, re-read. -/
theorem V_main_v0 (c : Dev nD) :
    (V m c main_v0 : S262144x384.Idx → EReal)
      = shapeCast S262144x384 (m ((c : Thread nD τ).loc main_arg1)) shapeCasts_S262144x3x128_S262144x384 := by
  dsimp only [Gen.V, Gen.hostOps0]; after_results; rfl

/-- What the region finds in the second flattened array: the fourth argument, re-read. -/
theorem V_main_v1 (c : Dev nD) :
    (V m c main_v1 : S262144x384.Idx → EReal)
      = shapeCast S262144x384 (m ((c : Thread nD τ).loc main_arg3)) shapeCasts_S262144x3x128_S262144x384 := by
  dsimp only [Gen.V, Gen.hostOps0]; after_results; rfl

/-- Entry (r, 128 k + j) of the first flattened array is entry (r, k, j) of the second argument. -/
theorem V_main_v0_apply (c : Dev nD) (r : Fin 262144) (k : Fin 3) (j : Fin 128) :
    (V m c main_v0 : S262144x384.Idx → EReal) (ix2 r (flatCol k j))
      = (m ((c : Thread nD τ).loc main_arg1) : S262144x3x128.Idx → EReal) (ix3 r k j) := by
  rw [V_main_v0]; exact flatten_apply _ r k j

/-- Entry (r, 128 k + j) of the second flattened array is entry (r, k, j) of the fourth argument. -/
theorem V_main_v1_apply (c : Dev nD) (r : Fin 262144) (k : Fin 3) (j : Fin 128) :
    (V m c main_v1 : S262144x384.Idx → EReal) (ix2 r (flatCol k j))
      = (m ((c : Thread nD τ).loc main_arg3) : S262144x3x128.Idx → EReal) (ix3 r k j) := by
  rw [V_main_v1]; exact flatten_apply _ r k j

end Cert.KernelIdeal.FlatArgs

end
-- ==== Proof.ArrayValue.lean ====
/-
  From blocks to the whole array: the kernel's result array is the result function of the arguments.

  The grid has 128 points. At point t every window's block is block (t, 0) of its array: rows
  2048 t to 2048 t + 2047, all columns. So each input block holds those rows of its array, the
  block the point writes back is the block function of them, and that is block t of the flattened
  result function of the arrays as the region finds them.

  The 128 output blocks tile the [262144, 256] array: row r lies in block r / 2048. Hence after the
  run the array holds the flattened result function everywhere. The two scalar arrays reach the
  region as launched and the two flattened arrays are the row-major re-readings of the vector
  arguments, so this is the result function of the four arguments.
-/
import proofs.«164829_j9062380994709_2_alg».proof.Proof.Gen.KernelIdeal.Value
import proofs.«164829_j9062380994709_2_alg».proof.Proof.BlockPairing
import proofs.«164829_j9062380994709_2_alg».proof.Proof.PairingBlocks
import proofs.«164829_j9062380994709_2_alg».proof.Proof.FlatArgs
import Idealize.ShloMosaic.Lib.Pipeline.Value

noncomputable section

namespace Cert.KernelIdeal.ArrayValue

open Cert.KernelIdeal Cert.KernelIdeal.Gen
open Idealize.ShloMosaic Idealize.ShloMosaic.TcCoe Idealize.SL.Sem
open Idealize.ShloMosaic.Pipeline (Dat)
open Idealize.ShloMosaic.ValueIdx Cert.Pairing

variable (m : (ℓ : Loc nD τ sig) → Buf (Elt Ideal) ℓ) (ρ : Dev nD → PrngReg)

/-- At grid point t every window's block index is (t, 0), decided over the 128 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Each input block holds rows 2048 t … of its array -/

theorem iblk0_apply (c : Dev nD) (t : Fin cfg0.N) (T : Fin 128) (hT : T.val = t.val) (r : Fin 2048) (j : Fin 128) :
    (iblk m c 0 t : Vec Ideal S2048x128 .f32) (ix2 r j)
      = (V m c main_arg0 : S262144x128.Idx → EReal) (ix2 (rowOf T r) j) := by
  obtain ⟨h0, h1, -⟩ := idx_facts t
  show V m c main_arg0 (((cfg0.win 0).blk t).view.emb (ix2 r j)) = V m c main_arg0 (ix2 (rowOf T r) j)
  refine congrArg (V m c main_arg0) (funext fun a => Fin.ext ?_)
  match a with
  | ⟨0, _⟩ => show win0_0.index t (0 : Fin 2) * 2048 + 1 * r.val = 2048 * T.val + r.val; rw [h0, hT]; omega
  | ⟨1, _⟩ => show win0_0.index t (1 : Fin 2) * 128 + 1 * j.val = j.val; rw [h1]; omega

theorem iblk1_apply (c : Dev nD) (t : Fin cfg0.N) (T : Fin 128) (hT : T.val = t.val) (r : Fin 2048) (q : Fin 384) :
    (iblk m c 1 t : Vec Ideal S2048x384 .f32) (ix2 r q)
      = (V m c main_v0 : S262144x384.Idx → EReal) (ix2 (rowOf T r) q) := by
  obtain ⟨-, -, h0, h1, -⟩ := idx_facts t
  show V m c main_v0 (((cfg0.win 1).blk t).view.emb (ix2 r q)) = V m c main_v0 (ix2 (rowOf T r) q)
  refine congrArg (V m c main_v0) (funext fun a => Fin.ext ?_)
  match a with
  | ⟨0, _⟩ => show win0_1.index t (0 : Fin 2) * 2048 + 1 * r.val = 2048 * T.val + r.val; rw [h0, hT]; omega
  | ⟨1, _⟩ => show win0_1.index t (1 : Fin 2) * 384 + 1 * q.val = q.val; rw [h1]; omega

theorem iblk2_apply (c : Dev nD) (t : Fin cfg0.N) (T : Fin 128) (hT : T.val = t.val) (r : Fin 2048) (j : Fin 128) :
    (iblk m c 2 t : Vec Ideal S2048x128 .f32) (ix2 r j)
      = (V m c main_arg2 : S262144x128.Idx → EReal) (ix2 (rowOf T r) j) := by
  obtain ⟨-, -, -, -, h0, h1, -⟩ := idx_facts t
  show V m c main_arg2 (((cfg0.win 2).blk t).view.emb (ix2 r j)) = V m c main_arg2 (ix2 (rowOf T r) j)
  refine congrArg (V m c main_arg2) (funext fun a => Fin.ext ?_)
  match a with
  | ⟨0, _⟩ => show win0_2.index t (0 : Fin 2) * 2048 + 1 * r.val = 2048 * T.val + r.val; rw [h0, hT]; omega
  | ⟨1, _⟩ => show win0_2.index t (1 : Fin 2) * 128 + 1 * j.val = j.val; rw [h1]; omega

theorem iblk3_apply (c : Dev nD) (t : Fin cfg0.N) (T : Fin 128) (hT : T.val = t.val) (r : Fin 2048) (q : Fin 384) :
    (iblk m c 3 t : Vec Ideal S2048x384 .f32) (ix2 r q)
      = (V m c main_v1 : S262144x384.Idx → EReal) (ix2 (rowOf T r) q) := by
  obtain ⟨-, -, -, -, -, -, h0, h1, -⟩ := idx_facts t
  show V m c main_v1 (((cfg0.win 3).blk t).view.emb (ix2 r q)) = V m c main_v1 (ix2 (rowOf T r) q)
  refine congrArg (V m c main_v1) (funext fun a => Fin.ext ?_)
  match a with
  | ⟨0, _⟩ => show win0_3.index t (0 : Fin 2) * 2048 + 1 * r.val = 2048 * T.val + r.val; rw [h0, hT]; omega
  | ⟨1, _⟩ => show win0_3.index t (1 : Fin 2) * 384 + 1 * q.val = q.val; rw [h1]; omega

/-! ## What a point writes back, and the cover -/

/-- WHAT POINT t WRITES BACK is block t of the flattened result function of the arrays as the
    region finds them. -/
theorem flushed_eq (c : Dev nD) (t : Fin cfg0.N) :
    (dats m 0 c).flushed 4 t = ((cfg0.win 4).blk t).view.read (Elt Ideal)
      (flatPairing (V m c main_arg0) (V m c main_v0) (V m c main_arg2) (V m c main_v1)) := by
  have hN : cfg0.N = 128 := N_0
  have ht : t.val < 128 := by have := t.isLt; omega
  obtain ⟨-, -, -, -, -, -, -, -, h40, h41⟩ := idx_facts t
  rw [Value.flushed4, BlockValue.out_eq_blockPairing]
  funext y
  show blockPairing (iblk m c 0 t) (iblk m c 1 t) (iblk m c 2 t) (iblk m c 3 t) y
    = flatPairing (V m c main_arg0) (V m c main_v0) (V m c main_arg2) (V m c main_v1)
        (((cfg0.win 4).blk t).view.emb y)
  exact blockPairing_eq_flatPairing ⟨t.val, ht⟩
    (iblk m c 0 t) (iblk m c 1 t) (iblk m c 2 t) (iblk m c 3 t)
    (V m c main_arg0) (V m c main_v0) (V m c main_arg2) (V m c main_v1)
    (fun r j => iblk0_apply m c t ⟨t.val, ht⟩ rfl r j) (fun r q => iblk1_apply m c t ⟨t.val, ht⟩ rfl r q)
    (fun r j => iblk2_apply m c t ⟨t.val, ht⟩ rfl r j) (fun r q => iblk3_apply m c t ⟨t.val, ht⟩ rfl r q)
    y (((cfg0.win 4).blk t).view.emb y)
    (by show win0_4.index t (0 : Fin 2) * 2048 + 1 * (y 0).val = 2048 * t.val + (y 0).val; rw [h40]; omega)
    (by show win0_4.index t (1 : Fin 2) * 256 + 1 * (y 1).val = (y 1).val; rw [h41]; omega)

/-- An index of the array is in point t's block iff each coordinate is in the block's range. -/
theorem mem_blk (t : Fin cfg0.N) (i : S262144x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v2).slice (win0_4.rect t)).set ↔ _
  rw [View.set_slice_whole, Rect.mem_set_unit]
  exact Iff.rfl

/-- THE COVER: row r of the array lies in the block of point r / 2048, which writes back. -/
theorem cover (i : S262144x256.Idx) :
    ∃ t : Fin cfg0.N, (cfg0.win 4).flush t = true ∧ i ∈ ((cfg0.win 4).blk t).view.set := by
  have hN : cfg0.N = 128 := N_0
  have hi0 : (i 0).val < 262144 := idx2_lt0 i
  have hi1 : (i 1).val < 256 := idx2_lt1 i
  have hq : (i 0).val / 2048 < cfg0.N := by rw [hN]; omega
  obtain ⟨-, -, -, -, -, -, -, -, h40, h41⟩ := idx_facts ⟨(i 0).val / 2048, hq⟩
  refine ⟨⟨(i 0).val / 2048, hq⟩, flush0_4 _, ?_⟩
  rw [mem_blk]
  intro a
  match a with
  | ⟨0, _⟩ =>
    show win0_4.index ⟨(i 0).val / 2048, hq⟩ (0 : Fin 2) * 2048 ≤ (i 0).val
      ∧ (i 0).val < win0_4.index ⟨(i 0).val / 2048, hq⟩ (0 : Fin 2) * 2048 + 2048
    rw [h40]
    show (i 0).val / 2048 * 2048 ≤ (i 0).val ∧ (i 0).val < (i 0).val / 2048 * 2048 + 2048
    omega
  | ⟨1, _⟩ =>
    show win0_4.index ⟨(i 0).val / 2048, hq⟩ (1 : Fin 2) * 256 ≤ (i 1).val
      ∧ (i 1).val < win0_4.index ⟨(i 0).val / 2048, hq⟩ (1 : Fin 2) * 256 + 256
    rw [h41]
    omega

/-! ## The array after the run -/

/-- The output array ends holding the flattened result function of the arrays the region finds. -/
theorem final_flat (c : Dev nD) : (dats m 0 c).arrAt 4 cfg0.N
    = flatPairing (V m c main_arg0) (V m c main_v0) (V m c main_arg2) (V m c main_v1) :=
  (dats m 0 c).arrAt_eq_of_cover 4 _ (fun t _ => flushed_eq m c t) (fun i => cover i)

/-- THE ARRAY AFTER THE RUN is the result function of the four arguments as launched. -/
theorem final (c : Dev nD) : (dats m 0 c).arrAt 4 cfg0.N
    = pairing (m ((c : Thread nD τ).loc main_arg0)) (m ((c : Thread nD τ).loc main_arg1))
        (m ((c : Thread nD τ).loc main_arg2)) (m ((c : Thread nD τ).loc main_arg3)) := by
  rw [final_flat, V_main_arg0 m c, V_main_arg2 m c]
  exact flatPairing_eq_pairing _ _ _ _ _ _ (FlatArgs.V_main_v0_apply m c) (FlatArgs.V_main_v1_apply m c)

/-- The kernel's run, read: the result array at the result function of the arguments, the
    arguments unchanged. -/
theorem run : θ_run defs (onTc (τ := τ) (main (F := Ideal))) ⟨m, fun _ => 0, ρ⟩ fun r => ∀ c : Dev nD,
      r.2.mem ((c : Thread nD τ).loc main_v2)
        = pairing (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.lean ====
/-
  The certificate: a tiled kernel for the degree-zero tensor product against its plain reference.

  Inputs: on each of 262144 rows, 128 channels of a scalar and of a 3-vector, for a left and a right
  operand. Output: [262144, 256]; column c < 128 is the product of the two scalars of channel c, and
  column 128 + j is the inner product of the two 3-vectors of channel j.

  The kernel re-reads each vector argument as a [262144, 384] array, walks 128 blocks of 2048 rows,
  and in each block forms the scalars' product and the sum l0 * r0 + l1 * r1 + l2 * r2 over three
  128-column slices. The reference multiplies entry by entry, sums the vector product over the axis
  of the three components from zero, and joins the two halves along the columns. Over the extended
  reals both are the one function Cert.Pairing.pairing of the four arguments: the only difference is
  that the reference's sum starts from zero and the kernel's does not, and zero is the unit of
  addition. No finiteness of the inputs is used.

  The three frames: the two kernel programs' are the generated frame proofs, and the reference's is
  its run with the result dropped. The idealized kernel is the kernel's own text read over the
  extended reals, with no operation rewritten, so there is nothing to preserve beyond that.
-/
import proofs.«164829_j9062380994709_2_alg».proof.Defs
import proofs.«164829_j9062380994709_2_alg».proof.Proof.Gen.Kernel
import proofs.«164829_j9062380994709_2_alg».proof.Proof.Gen.Kernel.Skeleton
import proofs.«164829_j9062380994709_2_alg».proof.Proof.Gen.Kernel.Launch
import proofs.«164829_j9062380994709_2_alg».proof.Proof.Gen.Kernel.Points
import proofs.«164829_j9062380994709_2_alg».proof.Proof.Gen.Kernel.Frame
import proofs.«164829_j9062380994709_2_alg».proof.Proof.Gen.KernelIdeal
import proofs.«164829_j9062380994709_2_alg».proof.Proof.Gen.KernelIdeal.Skeleton
import proofs.«164829_j9062380994709_2_alg».proof.Proof.Gen.KernelIdeal.Launch
import proofs.«164829_j9062380994709_2_alg».proof.Proof.Gen.KernelIdeal.Points
import proofs.«164829_j9062380994709_2_alg».proof.Proof.Gen.KernelIdeal.Frame
import proofs.«164829_j9062380994709_2_alg».proof.Proof.Gen.KernelIdeal.Value
import proofs.«164829_j9062380994709_2_alg».proof.Proof.Gen.ReferenceIdeal
import proofs.«164829_j9062380994709_2_alg».proof.Proof.Gen.ReferenceIdeal.Run
import proofs.«164829_j9062380994709_2_alg».proof.Proof.Gen.ReferenceIdeal.Read
import proofs.«164829_j9062380994709_2_alg».proof.Proof.Gen.Pre_finite_inputs
import proofs.«164829_j9062380994709_2_alg».proof.Proof.Pairing
import proofs.«164829_j9062380994709_2_alg».proof.Proof.ReferencePairing
import proofs.«164829_j9062380994709_2_alg».proof.Proof.ArrayValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2)
    (Cert.ReferenceIdeal.Value.run (F := Ideal) m ρ)

/-- No operation was rewritten in reading the kernel over the extended reals. -/
theorem preserves : Cert.preserves_Kernel_KernelIdeal := trivial

/-- Over the extended reals the kernel's result array ends at the result function of its arguments
    (from blocks to the whole array), and the reference's at its last stage of its own arguments,
    which is the same function; the two sets of arguments agree. -/
theorem algebraic : Cert.algebraic_KernelIdeal_ReferenceIdeal := by
  intro m ρ m' ρ' _ hagree
  refine ⟨fun c => Cert.Pairing.pairing
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.stage_eq_pairing,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
